-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S128 .f32) (main_arg11 : FVec F S128x10 .f32) (main_arg12 : FVec F S10 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg11
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg12
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg7 : FVec F S3x128x128 .f32) (main_arg8 : FVec F S3x128x128 .f32) (main_arg9 : FVec F S128x128 .f32) (main_arg10 : FVec F S128 .f32) (main_arg11 : FVec F S128x10 .f32) (main_arg12 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg7
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg8
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : IVec S2x1600000 32) (main_arg2 : IVec S2x1600000 32) (main_arg3 : FVec F S1600000 .f32) (main_arg4 : FVec F S1600000 .f32) (main_arg5 : IVec S100000 32) (main_arg6 : FVec F S3x128x128 .f32) (main_arg7 : FVec F S3x128x128 .f32) (main_arg8 : FVec F S3x128x128 .f32) (main_arg9 : FVec F S128x128 .f32) (main_arg10 : FVec F S128 .f32) (main_arg11 : FVec F S128x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128x128 : Shape := ⟨3, ![1, 128, 128]⟩
abbrev S5000x128 : Shape := ⟨2, ![5000, 128]⟩
abbrev S64x128 : Shape := ⟨2, ![64, 128]⟩
abbrev S100000x1 : Shape := ⟨2, ![100000, 1]⟩
abbrev S64x10 : Shape := ⟨2, ![64, 10]⟩
abbrev S1x128 : Shape := ⟨2, ![1, 128]⟩
abbrev S1x10 : Shape := ⟨2, ![1, 10]⟩

abbrev nBuf : Space → Nat
  | .hbm => 140
  | .vmem => 39
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S1600000, .f32⟩
  | 4 => ⟨S1600000, .f32⟩
  | 5 => ⟨S100000, .i32⟩
  | 6 => ⟨S3x128x128, .f32⟩
  | 7 => ⟨S3x128x128, .f32⟩
  | 8 => ⟨S3x128x128, .f32⟩
  | 9 => ⟨S128x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S1x1600000, .i32⟩
  | 18 => ⟨S1600000, .i32⟩
  | 19 => ⟨S1x1600000, .i32⟩
  | 20 => ⟨S1600000, .i32⟩
  | 21 => ⟨S1600000x1, .f32⟩
  | 22 => ⟨S1600000x1, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S1600000x128, .f32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S1x128x128, .f32⟩
  | 54 => ⟨S128x128, .f32⟩
  | 55 => ⟨S1x128x128, .f32⟩
  | 56 => ⟨S128x128, .f32⟩
  | 57 => ⟨S1x128x128, .f32⟩
  | 58 => ⟨S128x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S1600000x128, .f32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S1x128x128, .f32⟩
  | 91 => ⟨S128x128, .f32⟩
  | 92 => ⟨S1x128x128, .f32⟩
  | 93 => ⟨S128x128, .f32⟩
  | 94 => ⟨S1x128x128, .f32⟩
  | 95 => ⟨S128x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S1600000x128, .f32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S1x128x128, .f32⟩
  | _ => ⟨S100000x128, .f32⟩

abbrev hbmTy0_1 (i : Nat) : BufTy := match i % 128 with
  | 0 => ⟨S128x128, .f32⟩
  | 1 => ⟨S1x128x128, .f32⟩
  | 2 => ⟨S128x128, .f32⟩
  | 3 => ⟨S1x128x128, .f32⟩
  | 4 => ⟨S128x128, .f32⟩
  | 5 => ⟨S100000x128, .f32⟩
  | 6 => ⟨S100000x128, .f32⟩
  | 7 => ⟨S_, .f32⟩
  | 8 => ⟨S64x128, .f32⟩
  | 9 => ⟨S100000x1, .i32⟩
  | 10 => ⟨S64x128, .f32⟩
  | 11 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S64x128, .f32⟩
  | .local _ .vmem, ⟨34, _⟩ => ⟨S128x128, .f32⟩
  | .local _ .vmem, ⟨35, _⟩ => ⟨S128, .f32⟩
  | .local _ .vmem, ⟨36, _⟩ => ⟨S128x10, .f32⟩
  | .local _ .vmem, ⟨37, _⟩ => ⟨S10, .f32⟩
  | .local _ .vmem, ⟨38, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_7 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_10 : Ref sig .tc := ⟨.hbm, 97, rfl⟩
abbrev main_v72 : Ref sig .tc := ⟨.hbm, 98, rfl⟩
abbrev main_v73 : Ref sig .tc := ⟨.hbm, 99, rfl⟩
abbrev main_c_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_12 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_13 : Ref sig .tc := ⟨.hbm, 112, rfl⟩
abbrev main_v84 : Ref sig .tc := ⟨.hbm, 113, rfl⟩
abbrev main_v85 : Ref sig .tc := ⟨.hbm, 114, rfl⟩
abbrev main_c_14 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_15 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_16 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S_S64x128 : S_.BroadcastsInDim S64x128 (![] : Fin 0 → Fin S64x128.rank)
  bcast_S100000_S100000x1_0 : S100000.BroadcastsInDim S100000x1 (![0] : Fin 1 → Fin S100000x1.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .f32 = 32 ∨ (Rect.block (s := S128x10) S128x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S10.size a ≤ S10.size a
  hwx3_4 : ∀ i : grid3.Coords, EltTy.bits .f32 = 32 ∨ (Rect.block (s := S10) S10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x10.size a ≤ S64x10.size a
  hwx3_5 : ∀ i : grid3.Coords, EltTy.bits .f32 = 32 ∨ (Rect.block (s := S64x10) S64x10.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v66) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v71) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v83) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v97) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v101) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v102) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v106) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v107) S64x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S3x128x128 : Shape := ⟨3, ![3, 128, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128x128 : Shape := ⟨3, ![1, 128, 128]⟩
abbrev S64x128 : Shape := ⟨2, ![64, 128]⟩
abbrev S100000x1 : Shape := ⟨2, ![100000, 1]⟩
abbrev S1x128 : Shape := ⟨2, ![1, 128]⟩
abbrev S64x10 : Shape := ⟨2, ![64, 10]⟩
abbrev S1x10 : Shape := ⟨2, ![1, 10]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S1600000, .f32⟩
  | 4 => ⟨S1600000, .f32⟩
  | 5 => ⟨S100000, .i32⟩
  | 6 => ⟨S3x128x128, .f32⟩
  | 7 => ⟨S3x128x128, .f32⟩
  | 8 => ⟨S3x128x128, .f32⟩
  | 9 => ⟨S128x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S1x1600000, .i32⟩
  | 18 => ⟨S1600000, .i32⟩
  | 19 => ⟨S1x1600000, .i32⟩
  | 20 => ⟨S1600000, .i32⟩
  | 21 => ⟨S1600000x1, .f32⟩
  | 22 => ⟨S1600000x1, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S1600000x128, .f32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S1x128x128, .f32⟩
  | 54 => ⟨S128x128, .f32⟩
  | 55 => ⟨S100000x128, .f32⟩
  | 56 => ⟨S1x128x128, .f32⟩
  | 57 => ⟨S128x128, .f32⟩
  | 58 => ⟨S100000x128, .f32⟩
  | 59 => ⟨S100000x128, .f32⟩
  | 60 => ⟨S1x128x128, .f32⟩
  | 61 => ⟨S128x128, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S1600000x128, .f32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S1x128x128, .f32⟩
  | 95 => ⟨S128x128, .f32⟩
  | 96 => ⟨S100000x128, .f32⟩
  | 97 => ⟨S1x128x128, .f32⟩
  | 98 => ⟨S128x128, .f32⟩
  | 99 => ⟨S100000x128, .f32⟩
  | 100 => ⟨S100000x128, .f32⟩
  | 101 => ⟨S1x128x128, .f32⟩
  | 102 => ⟨S128x128, .f32⟩
  | 103 => ⟨S100000x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x128, .f32⟩
  | 1 => ⟨S1600000x128, .f32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S1x128x128, .f32⟩
  | 8 => ⟨S128x128, .f32⟩
  | 9 => ⟨S100000x128, .f32⟩
  | 10 => ⟨S1x128x128, .f32⟩
  | 11 => ⟨S128x128, .f32⟩
  | 12 => ⟨S100000x128, .f32⟩
  | 13 => ⟨S100000x128, .f32⟩
  | 14 => ⟨S1x128x128, .f32⟩
  | 15 => ⟨S128x128, .f32⟩
  | 16 => ⟨S100000x128, .f32⟩
  | 17 => ⟨S100000x128, .f32⟩
  | 18 => ⟨S100000x128, .f32⟩
  | 19 => ⟨S_, .f32⟩
  | 20 => ⟨S64x128, .f32⟩
  | 21 => ⟨S100000x1, .i32⟩
  | 22 => ⟨S64x128, .f32⟩
  | 23 => ⟨S64x128, .f32⟩
  | 24 => ⟨S1x128, .f32⟩
  | 25 => ⟨S64x128, .f32⟩
  | 26 => ⟨S64x128, .f32⟩
  | 27 => ⟨S_, .f32⟩
  | 28 => ⟨S64x128, .f32⟩
  | 29 => ⟨S64x128, .f32⟩
  | 30 => ⟨S64x10, .f32⟩
  | 31 => ⟨S1x10, .f32⟩
  | 32 => ⟨S64x10, .f32⟩
  | 33 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_4 : Ref sig .tc := ⟨.hbm, 64, rfl⟩
abbrev main_v45 : Ref sig .tc := ⟨.hbm, 65, rfl⟩
abbrev main_v46 : Ref sig .tc := ⟨.hbm, 66, rfl⟩
abbrev main_c_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_7 : Ref sig .tc := ⟨.hbm, 79, rfl⟩
abbrev main_v57 : Ref sig .tc := ⟨.hbm, 80, rfl⟩
abbrev main_v58 : Ref sig .tc := ⟨.hbm, 81, rfl⟩
abbrev main_c_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_10 : Ref sig .tc := ⟨.hbm, 105, rfl⟩
abbrev main_v80 : Ref sig .tc := ⟨.hbm, 106, rfl⟩
abbrev main_v81 : Ref sig .tc := ⟨.hbm, 107, rfl⟩
abbrev main_c_11 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_13 : Ref sig .tc := ⟨.hbm, 120, rfl⟩
abbrev main_v92 : Ref sig .tc := ⟨.hbm, 121, rfl⟩
abbrev main_v93 : Ref sig .tc := ⟨.hbm, 122, rfl⟩
abbrev main_c_14 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_15 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_16 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_call0_cst : Ref sig .tc := ⟨.hbm, 155, rfl⟩
abbrev main_call0_v0 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S_S64x128 : S_.BroadcastsInDim S64x128 (![] : Fin 0 → Fin S64x128.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x10_S64x10_1_0_0_1_n_n_wf : DotDims.WF S64x128 S128x10 S64x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run with its RESULT named.

  @main is eight segments: four stretches of host operations, each followed by a pallas_call. The contents of the
  TensorCore's buffers at the eight segment boundaries are the fold `W0, W1, …, W8` from the launch memory: a stretch
  applies its operations, a region replaces each of its arrays by what its write-backs leave. The launch theorem for
  such a program gives, of every final state, that EVERY unscoped buffer holds `W8`'s contents. Read at the thirteen
  arguments this is the frame; read at the one result buffer as well, it is the statement below: the program's
  result is `W8` at that buffer, a pure term of the launch memory. What that term is, is the business of the modules
  that import this one.
-/
import proofs.«151677_j22093311771174_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; its result buffer then holds the last
    boundary's contents at that buffer, and the argument arrays are as launched. -/
theorem run : θ_run defs (onTc (τ := τ) (main (F := F))) ⟨m, fun _ => 0, ρ⟩ (fun r => ∀ c : Dev nD,
      r.2.mem ((c.tc : Thread nD τ).loc main_v107) = W8 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v107 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Result

end
-- ==== Proof.TileProduct.lean ====
/-
  The kernels' arithmetic read at an index, at the ideal instance.

  A row tile `x` of 5000 rows and a weight matrix `w` of 128 × 128 meet in a matrix product into a zero accumulator.
  On the extended reals the zero accumulator adds nothing, a change of float format is the identity, and the product's
  entry (p, q) is the plain sum over k of x(p, k) · w(k, q). The combine body's stored value is the sum of three such
  products, grouped as (first + second) + third. The head's body is a product of a 64-row operand with a 128 × 128
  matrix, a bias row added to every row, the maximum with zero, a product with a 128 × 10 matrix and a second bias
  row. Nothing here needs a law of the extended reals beyond 0 + s = s.
-/
import proofs.«151677_j22093311771174_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Tile

open Cert.KernelIdeal Idealize.ShloMosaic Idealize.ShloMosaic.TcCoe Idealize.SL.Sem

/-! ## A 5000-row tile times a 128 × 128 matrix -/

/-- The left factor's index for entry `j` and contraction position `k`: row of `j`, column `k`. -/
abbrev rowAt (j : S5000x128.Idx) (k : Fin 128) : S5000x128.Idx := fun a => match a with
  | ⟨0, _⟩ => ⟨(j 0).val, (j 0).isLt⟩
  | ⟨1, _⟩ => ⟨k.val, k.isLt⟩
/-- The right factor's index: row `k`, column of `j`. -/
abbrev colAt (j : S5000x128.Idx) (k : Fin 128) : S128x128.Idx := fun a => match a with
  | ⟨0, _⟩ => ⟨k.val, k.isLt⟩
  | ⟨1, _⟩ => ⟨(j 1).val, (j 1).isLt⟩

theorem tile_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tile_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem tile_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem tile_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `j` of a tile's product into a zero accumulator is the sum over `k` of row-of-`j` times column-of-`j`. -/
theorem tile_product_apply {φ₁ φ₂ : FTy} (l : FVec Ideal S5000x128 φ₁) (r : FVec Ideal S128x128 φ₂) (j : S5000x128.Idx) :
    FloatOps.matmul dot_S5000x128_S128x128_S5000x128_1_0_0_1_n_n none l r (constant (F := Ideal) S5000x128 .f32 0x00000000#32) j
      = ∑ k : Fin 128, l (rowAt j k) * r (colAt j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact tile_lhs_0 _ _
    | ⟨1, _⟩ => exact (tile_lhs_1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (tile_rhs_0 _ _).trans hk
    | ⟨1, _⟩ => exact tile_rhs_1 _ _)
  rw [el, er]

/-- What a combine body stores, entry by entry: three tile products, (first + second) + third. -/
def combineAt (x0 x1 x2 : Vec Ideal S5000x128 .f32) (x3 x4 x5 : Vec Ideal S128x128 .f32) (j : S5000x128.Idx) : EReal :=
  ((∑ k : Fin 128, x0 (rowAt j k) * x3 (colAt j k)) + (∑ k : Fin 128, x1 (rowAt j k) * x4 (colAt j k)))
    + (∑ k : Fin 128, x2 (rowAt j k) * x5 (colAt j k))

theorem combine0_apply (x0 x1 x2 : Vec Ideal S5000x128 .f32) (x3 x4 x5 : Vec Ideal S128x128 .f32) (j : S5000x128.Idx) :
    Gen.k0_pay1 (F := Ideal) x0 x1 x2 x3 x4 x5 j = combineAt x0 x1 x2 x3 x4 x5 j := by
  unfold Gen.k0_pay1 combineAt
  simp only [shapeCast_self]
  show FloatOps.addf (FloatOps.addf (FloatOps.matmul _ none _ _ _ j) (FloatOps.matmul _ none _ _ _ j)) (FloatOps.matmul _ none _ _ _ j) = _
  rw [tile_product_apply, tile_product_apply, tile_product_apply]
  rfl

theorem combine1_apply (x0 x1 x2 : Vec Ideal S5000x128 .f32) (x3 x4 x5 : Vec Ideal S128x128 .f32) (j : S5000x128.Idx) :
    Gen.k1_pay1 (F := Ideal) x0 x1 x2 x3 x4 x5 j = combineAt x0 x1 x2 x3 x4 x5 j := by
  unfold Gen.k1_pay1 combineAt
  simp only [shapeCast_self]
  show FloatOps.addf (FloatOps.addf (FloatOps.matmul _ none _ _ _ j) (FloatOps.matmul _ none _ _ _ j)) (FloatOps.matmul _ none _ _ _ j) = _
  rw [tile_product_apply, tile_product_apply, tile_product_apply]
  rfl

theorem combine2_apply (x0 x1 x2 : Vec Ideal S5000x128 .f32) (x3 x4 x5 : Vec Ideal S128x128 .f32) (j : S5000x128.Idx) :
    Gen.k2_pay1 (F := Ideal) x0 x1 x2 x3 x4 x5 j = combineAt x0 x1 x2 x3 x4 x5 j := by
  unfold Gen.k2_pay1 combineAt
  simp only [shapeCast_self]
  show FloatOps.addf (FloatOps.addf (FloatOps.matmul _ none _ _ _ j) (FloatOps.matmul _ none _ _ _ j)) (FloatOps.matmul _ none _ _ _ j) = _
  rw [tile_product_apply, tile_product_apply, tile_product_apply]
  rfl

end Cert.KernelIdeal.Tile

end
-- ==== Proof.LayerSpec.lean ====
/-
  One layer's dense combine as a function of whole arrays, and the bridge from a row tile to it.

  For row-indexed arrays `up`, `dn`, `x` of 100000 × 128 and weight matrices `wu`, `wd`, `ws` of 128 × 128, the layer's
  result at (r, q) is

      (Σₖ up(r,k)·wu(k,q) + Σₖ dn(r,k)·wd(k,q)) + Σₖ x(r,k)·ws(k,q).

  A row tile of 5000 rows computes the same three sums from its own rows: if the tile's row p is the array's row r,
  and the weights are the same matrices, the tile's entry (p, q) is the array's entry (r, q), term by term.
-/
import proofs.«151677_j22093311771174_1_alg».proof.Proof.TileProduct

noncomputable section

namespace Cert.KernelIdeal.Tile

open Cert.KernelIdeal Idealize.ShloMosaic Idealize.ShloMosaic.TcCoe Idealize.SL.Sem

/-- Row of `i`, column `k`, in a 100000 × 128 array. -/
abbrev rowOf (i : S100000x128.Idx) (k : Fin 128) : S100000x128.Idx := fun a => match a with
  | ⟨0, _⟩ => ⟨(i 0).val, (i 0).isLt⟩
  | ⟨1, _⟩ => ⟨k.val, k.isLt⟩
/-- Row `k`, column of `i`, in a 128 × 128 matrix. -/
abbrev colOf (i : S100000x128.Idx) (k : Fin 128) : S128x128.Idx := fun a => match a with
  | ⟨0, _⟩ => ⟨k.val, k.isLt⟩
  | ⟨1, _⟩ => ⟨(i 1).val, (i 1).isLt⟩

/-- The layer's combine, entry by entry. -/
def layerAt (up dn x : (⟨S100000x128, .f32⟩ : BufTy).Contents (Elt Ideal)) (wu wd ws : (⟨S128x128, .f32⟩ : BufTy).Contents (Elt Ideal)) :
    (⟨S100000x128, .f32⟩ : BufTy).Contents (Elt Ideal) := fun i =>
  ((∑ k : Fin 128, up (rowOf i k) * wu (colOf i k)) + (∑ k : Fin 128, dn (rowOf i k) * wd (colOf i k)))
    + (∑ k : Fin 128, x (rowOf i k) * ws (colOf i k))

/-- A tile whose rows are the arrays' rows and whose weights are the arrays' weights computes the layer's entry. -/
theorem combineAt_eq_layerAt (up dn x : (⟨S100000x128, .f32⟩ : BufTy).Contents (Elt Ideal)) (wu wd ws : (⟨S128x128, .f32⟩ : BufTy).Contents (Elt Ideal))
    (b0 b1 b2 : Vec Ideal S5000x128 .f32) (b3 b4 b5 : Vec Ideal S128x128 .f32) (j : S5000x128.Idx) (i : S100000x128.Idx)
    (h0 : ∀ k, b0 (rowAt j k) = up (rowOf i k)) (h1 : ∀ k, b1 (rowAt j k) = dn (rowOf i k)) (h2 : ∀ k, b2 (rowAt j k) = x (rowOf i k))
    (h3 : ∀ k, b3 (colAt j k) = wu (colOf i k)) (h4 : ∀ k, b4 (colAt j k) = wd (colOf i k)) (h5 : ∀ k, b5 (colAt j k) = ws (colOf i k)) :
    combineAt b0 b1 b2 b3 b4 b5 j = layerAt up dn x wu wd ws i := by
  unfold combineAt layerAt
  simp only [h0, h1, h2, h3, h4, h5]

end Cert.KernelIdeal.Tile

end
-- ==== Proof.Region0.lean ====
/-
  Region 0 (the first layer's combine): what its output array holds when the region ends.

  The grid has 20 points; point t stages rows 5000·t … 5000·t + 4999 of the three row-indexed operands and the whole of
  each 128 × 128 weight matrix, and writes back rows 5000·t … 5000·t + 4999 of the output. So the block written back
  at t is the restriction to those rows of ONE whole-array function, the layer's combine of the arrays as the region
  finds them; and since every row r lies in the block of point r / 5000, the blocks cover the array, which therefore
  ends holding that function everywhere.
-/
import proofs.«151677_j22093311771174_1_alg».proof.Proof.LayerSpec
import proofs.«151677_j22093311771174_1_alg».proof.Proof.Gen.KernelIdeal.Frame

set_option maxRecDepth 16384

noncomputable section

namespace Cert.KernelIdeal.Region0

open Cert.KernelIdeal Cert.KernelIdeal.Gen Cert.KernelIdeal.Tile
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row operands move with the output along the rows and sit at
    column block 0; the weights sit at block (0, 0); the output's row block is at most 19. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every row block is some point's. -/
theorem index_onto : ∀ q : Fin 20, ∃ t : Fin cfg0.N, win0_6.index t = ![q.val, 0] :=
  (by decide +kernel : ∀ q : Fin 20, ∃ t : Fin grid0.N, win0_6.index t = ![q.val, 0])

/-- The layer's combine of the arrays as the region finds them. -/
abbrev layer (c : Dev nD) : (⟨S100000x128, .f32⟩ : BufTy).Contents (Elt Ideal) :=
  layerAt (V c main_v21) (V c main_v33) (V c main_arg0) (V c main_v35) (V c main_v37) (V c main_v39)

/-- What point `t` writes back is block `t` of the layer's combine. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero origin]
  simp only [View.ld_unit_zero (S := S5000x128) origin, View.ld_unit_zero (S := S128x128) origin]
  obtain ⟨e0, e0', e1, e1', e2, e2', e3, e3', e4, e4', e5, e5', e6, e6'⟩ := index_facts t
  funext j
  show k0_pay1 (F := Ideal) (iblk0 V c 0 t) (iblk0 V c 1 t) (iblk0 V c 2 t) (iblk0 V c 3 t) (iblk0 V c 4 t) (iblk0 V c 5 t) j
    = layerAt (V c main_v21) (V c main_v33) (V c main_arg0) (V c main_v35) (V c main_v37) (V c main_v39) (((cfg0.win 6).blk t).view.emb j)
  refine (combine0_apply (iblk0 V c 0 t) (iblk0 V c 1 t) (iblk0 V c 2 t) (iblk0 V c 3 t) (iblk0 V c 4 t) (iblk0 V c 5 t) j).trans ?_
  have hj0 : (j 0).val < 5000 := (j 0).isLt
  have hj1 : (j 1).val < 128 := (j 1).isLt
  refine combineAt_eq_layerAt _ _ _ _ _ _ _ _ _ _ _ _ j _ (fun k => ?_) (fun k => ?_) (fun k => ?_) (fun k => ?_) (fun k => ?_) (fun k => ?_)
  · show V c main_v21 (((cfg0.win 0).blk t).view.emb (rowAt j k)) = V c main_v21 (rowOf (((cfg0.win 6).blk t).view.emb j) k)
    refine congrArg _ (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  · show V c main_v33 (((cfg0.win 1).blk t).view.emb (rowAt j k)) = V c main_v33 (rowOf (((cfg0.win 6).blk t).view.emb j) k)
    refine congrArg _ (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 128 + 1 * k.val = k.val; omega
  · show V c main_arg0 (((cfg0.win 2).blk t).view.emb (rowAt j k)) = V c main_arg0 (rowOf (((cfg0.win 6).blk t).view.emb j) k)
    refine congrArg _ (funext fun a => Fin.ext ?_)
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 128 + 1 * k.val = k.val; omega
  · show V c main_v35 (((cfg0.win 3).blk t).view.emb (colAt j k)) = V c main_v35 (colOf (((cfg0.win 6).blk t).view.emb j) k)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  · show V c main_v37 (((cfg0.win 4).blk t).view.emb (colAt j k)) = V c main_v37 (colOf (((cfg0.win 6).blk t).view.emb j) k)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_6.index t (1 : Fin 2) * 128 + 1 * (j 1).val; omega
  · show V c main_v39 (((cfg0.win 5).blk t).view.emb (colAt j k)) = V c main_v39 (colOf (((cfg0.win 6).blk t).view.emb j) k)
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * (j 1).val = win0_6.index t (1 : Fin 2) * 128 + 1 * (j 1).val; omega

/-- An index of the output array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v40).slice (win0_6.rect t)).set ↔ _
  rw [View.set_slice_whole, Rect.mem_set_unit]
  exact Iff.rfl

/-- Every index of the output array lies in the block of the point its row selects. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array when the region ends: the layer's combine of the arrays as the region found them. -/
theorem array_eq (c : Dev nD) : (dat0 V c).arrAt 6 cfg0.N = layer V c :=
  (dat0 V c).arrAt_eq_of_cover 6 (layer V c) (fun t _ => flushed_eq V c t) (covered)

end Cert.KernelIdeal.Region0

end
-- ==== Proof.Region1.lean ====
/-
  Region 1 (the second layer's combine): what its output array holds when the region ends.

  The grid has 20 points; point t stages rows 5000·t … 5000·t + 4999 of the three row-indexed operands and the whole of
  each 128 × 128 weight matrix, and writes back rows 5000·t … 5000·t + 4999 of the output. So the block written back
  at t is the restriction to those rows of ONE whole-array function, the layer's combine of the arrays as the region
  finds them; and since every row r lies in the block of point r / 5000, the blocks cover the array, which therefore
  ends holding that function everywhere.
-/
import proofs.«151677_j22093311771174_1_alg».proof.Proof.LayerSpec
import proofs.«151677_j22093311771174_1_alg».proof.Proof.Gen.KernelIdeal.Frame

set_option maxRecDepth 16384

noncomputable section

namespace Cert.KernelIdeal.Region1

open Cert.KernelIdeal Cert.KernelIdeal.Gen Cert.KernelIdeal.Tile
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row operands move with the output along the rows and sit at
    column block 0; the weights sit at block (0, 0); the output's row block is at most 19. -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

/-- Every row block is some point's. -/
theorem index_onto : ∀ q : Fin 20, ∃ t : Fin cfg1.N, win1_6.index t = ![q.val, 0] :=
  (by decide +kernel : ∀ q : Fin 20, ∃ t : Fin grid1.N, win1_6.index t = ![q.val, 0])

/-- The layer's combine of the arrays as the region finds them. -/
abbrev layer (c : Dev nD) : (⟨S100000x128, .f32⟩ : BufTy).Contents (Elt Ideal) :=
  layerAt (V c main_v52) (V c main_v64) (V c main_v40) (V c main_v66) (V c main_v68) (V c main_v70)

/-- What point `t` writes back is block `t` of the layer's combine. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero origin]
  simp only [View.ld_unit_zero (S := S5000x128) origin, View.ld_unit_zero (S := S128x128) origin]
  obtain ⟨e0, e0', e1, e1', e2, e2', e3, e3', e4, e4', e5, e5', e6, e6'⟩ := index_facts t
  funext j
  show k1_pay1 (F := Ideal) (iblk1 V c 0 t) (iblk1 V c 1 t) (iblk1 V c 2 t) (iblk1 V c 3 t) (iblk1 V c 4 t) (iblk1 V c 5 t) j
    = layerAt (V c main_v52) (V c main_v64) (V c main_v40) (V c main_v66) (V c main_v68) (V c main_v70) (((cfg1.win 6).blk t).view.emb j)
  refine (combine1_apply (iblk1 V c 0 t) (iblk1 V c 1 t) (iblk1 V c 2 t) (iblk1 V c 3 t) (iblk1 V c 4 t) (iblk1 V c 5 t) j).trans ?_
  have hj0 : (j 0).val < 5000 := (j 0).isLt
  have hj1 : (j 1).val < 128 := (j 1).isLt
  refine combineAt_eq_layerAt _ _ _ _ _ _ _ _ _ _ _ _ j _ (fun k => ?_) (fun k => ?_) (fun k => ?_) (fun k => ?_) (fun k => ?_) (fun k => ?_)
  · show V c main_v52 (((cfg1.win 0).blk t).view.emb (rowAt j k)) = V c main_v52 (rowOf (((cfg1.win 6).blk t).view.emb j) k)
    refine congrArg _ (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  · show V c main_v64 (((cfg1.win 1).blk t).view.emb (rowAt j k)) = V c main_v64 (rowOf (((cfg1.win 6).blk t).view.emb j) k)
    refine congrArg _ (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 128 + 1 * k.val = k.val; omega
  · show V c main_v40 (((cfg1.win 2).blk t).view.emb (rowAt j k)) = V c main_v40 (rowOf (((cfg1.win 6).blk t).view.emb j) k)
    refine congrArg _ (funext fun a => Fin.ext ?_)
    match a with
    | ⟨0, _⟩ => show win1_2.index t (0 : Fin 2) * 5000 + 1 * (j 0).val = win1_6.index t (0 : Fin 2) * 5000 + 1 * (j 0).val; omega
    | ⟨1, _⟩ => show win1_2.index t (1 : Fin 2) * 128 + 1 * k.val = k.val; omega
  · show V c main_v66 (((cfg1.win 3).blk t).view.emb (colAt j k)) = V c main_v66 (colOf (((cfg1.win 6).blk t).view.emb j) k)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_6.index t (1 : Fin 2) * 128 + 1 * (j 1).val; omega
  · show V c main_v68 (((cfg1.win 4).blk t).view.emb (colAt j k)) = V c main_v68 (colOf (((cfg1.win 6).blk t).view.emb j) k)
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_6.index t (1 : Fin 2) * 128 + 1 * (j 1).val; omega
  · show V c main_v70 (((cfg1.win 5).blk t).view.emb (colAt j k)) = V c main_v70 (colOf (((cfg1.win 6).blk t).view.emb j) k)
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * (j 1).val = win1_6.index t (1 : Fin 2) * 128 + 1 * (j 1).val; omega

/-- An index of the output array is in point `t`'s block iff each coordinate is in the block's range on its axis. -/
theorem mem_block (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v71).slice (win1_6.rect t)).set ↔ _
  rw [View.set_slice_whole, Rect.mem_set_unit]
  exact Iff.rfl

/-- Every index of the output array lies in the block of the point its row selects. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array when the region ends: the layer's combine of the arrays as the region found them. -/
theorem array_eq (c : Dev nD) : (dat1 V c).arrAt 6 cfg1.N = layer V c :=
  (dat1 V c).arrAt_eq_of_cover 6 (layer V c) (fun t _ => flushed_eq V c t) (covered)

end Cert.KernelIdeal.Region1

end
-- ==== Proof.Region2.lean ====
/-
  Region 2 (the third layer's combine): what its output array holds when the region ends.

  The grid has 20 points; point t stages rows 5000·t … 5000·t + 4999 of the three row-indexed operands and the whole of
  each 128 × 128 weight matrix, and writes back rows 5000·t … 5000·t + 4999 of the output. So the block written back
  at t is the restriction to those rows of ONE whole-array function, the layer's combine of the arrays as the region
  finds them; and since every row r lies in the block of point r / 5000, the blocks cover the array, which therefore
  ends holding that function everywhere.
-/
import proofs.«151677_j22093311771174_1_alg».proof.Proof.LayerSpec
import proofs.«151677_j22093311771174_1_alg».proof.Proof.Gen.KernelIdeal.Frame

set_option maxRecDepth 16384

noncomputable section

namespace Cert.KernelIdeal.Region2

open Cert.KernelIdeal Cert.KernelIdeal.Gen Cert.KernelIdeal.Tile
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the three row operands move with the output along the rows and sit at
    column block 0; the weights sit at block (0, 0); the output's row block is at most 19. -/
theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

/-- Every row block is some point's. -/
theorem index_onto : ∀ q : Fin 20, ∃ t : Fin cfg2.N, win2_6.index t = ![q.val, 0] :=
  (by decide +kernel : ∀ q : Fin 20, ∃ t : Fin grid2.N, win2_6.index t = ![q.val, 0])

/-- The layer's combine of the arrays as the region finds them. -/
abbrev layer (c : Dev nD) : (⟨S100000x128, .f32⟩ : BufTy).Contents (Elt Ideal) :=
  layerAt (V c main_v83) (V c main_v95) (V c main_v71) (V c main_v97) (V c main_v99) (V c main_v101)

/-- What point `t` writes back is block `t` of the layer's combine. -/
theorem flushed_eq (c : Dev nD) (t : Fin cfg2.N) :
    (dat2 V c).flushed 6 t = ((cfg2.win 6).blk t).view.read (Elt Ideal) (layer V c) := by
  show (cfg2.win 6).cut (grid2.coords t) ((dat2 V c).after 6 t) = _
  rw [after2_6]
  unfold out2_6
  rw [View.canon_unit_zero origin]
  simp only [View.ld_unit_zero (S := S5000x128) origin, View.ld_unit_zero (S := S128x128) origin]
  obtain ⟨e0, e0', e1, e1', e2, e2', e3, e3', e4, e4', e5, e5', e6, e6'⟩ := index_facts t
  funext j
  show k2_pay1 (F := Ideal) (iblk2 V c 0 t) (iblk2 V c 1 t) (iblk2 V c 2 t) (iblk2 V c 3 t) (iblk2 V c 4 t) (iblk2 V c 5 t) j
    = layerAt (V c main_v83) (V c main_v95) (V c main_v71) (V c main_v97) (V c main_v99) (V c main_v101) (((cfg2.win 6).blk t).view.emb j)
  refine (combine2_apply (iblk2 V c 0 t) (iblk2 V c 1 t) (iblk2 V c 2 t) (iblk2 V c 3 t) (iblk2 V c 4 t) (iblk2 V c 5 t) j).trans ?_
  have hj0 : (j 0).val < 5000 := (j 0).isLt
  have hj1 : (j 1).val < 128 := (j 1).isLt
  refine combineAt_eq_layerAt _ _ _ _ _ _ _ _ _ _ _ _ j _ (fun k => ?_) (fun k => ?_) (fun k => ?_) (fun k => ?_) (fun k => ?_) (fun k => ?_)
  · show V c main_v83 (((cfg2.win 0).blk t).view.emb (rowAt j k)) = V c main_v83 (rowOf (((cfg2.win 6).blk t).view.emb j) k)
    refine congrArg _ (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * k.val = k.val; omega
  · show V c main_v95 (((cfg2.win 1).blk t).view.emb (rowAt j k)) = V c main_v95 (rowOf (((cfg2.win 6).blk t).view.emb j) k)
    refine congrArg _ (funext fun a => Fin.ext ?_)
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 128 + 1 * k.val = k.val; omega
  · show V c main_v71 (((cfg2.win 2).blk t).view.emb (rowAt j k)) = V c main_v71 (rowOf (((cfg2.win 6).blk t).view.emb j) k)
    refine congrArg _ (funext fun a => Fin.ext ?_)
    match a with
    | ⟨0, _⟩ => show win2_2.index t (0 : Fin 2) * 5000 + 1 * (j 0).val = win2_6.index t (0 : Fin 2) * 5000 + 1 * (j 0).val; omega
    | ⟨1, _⟩ => show win2_2.index t (1 : Fin 2) * 128 + 1 * k.val = k.val; omega
  · show V c main_v97 (((cfg2.win 3).blk t).view.emb (colAt j k)) = V c main_v97 (colOf (((cfg2.win 6).blk t).view.emb j) k)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * (j 1).val = win2_6.index t (1 : Fin 2) * 128 + 1 * (j 1).val; omega
  · show V c main_v99 (((cfg2.win 4).blk t).view.emb (colAt j k)) = V c main_v99 (colOf (((cfg2.win 6).blk t).view.emb j) k)
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * (j 1).val = win2_6.index t (1 : Fin 2) * 128 + 1 * (j 1).val; omega
  · show V c main_v101 (((cfg2.win 5).blk t).view.emb (colAt j k)) = V c main_v101 (colOf (((cfg2.win 6).blk t).view.emb j) k)
    refine congrArg _ (funext fun a => Fin.ext ?_)
    match a with
    | ⟨0, _⟩ => show win2_5.index t (0 : Fin 2) * 128 + 1 * k.val = k.val; omega
    | ⟨1, _⟩ => show win2_5.index t (1 : Fin 2) * 128 + 1 * (j 1).val = win2_6.index t (1 : Fin 2) * 128 + 1 * (j 1).val; omega

/-- An index of the output array is in point `t`'s block iff each coordinate is in the block's range on its axis. -/
theorem mem_block (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v102).slice (win2_6.rect t)).set ↔ _
  rw [View.set_slice_whole, Rect.mem_set_unit]
  exact Iff.rfl

/-- Every index of the output array lies in the block of the point its row selects. -/
theorem covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := index_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_block]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array when the region ends: the layer's combine of the arrays as the region found them. -/
theorem array_eq (c : Dev nD) : (dat2 V c).arrAt 6 cfg2.N = layer V c :=
  (dat2 V c).arrAt_eq_of_cover 6 (layer V c) (fun t _ => flushed_eq V c t) (covered)

end Cert.KernelIdeal.Region2

end
-- ==== Proof.HeadProduct.lean ====
/-
  The head's arithmetic read at an index, at the ideal instance.

  With p the pooled 64 × 128 array, W1 a 128 × 128 matrix, b1 a row of 128, W2 a 128 × 10 matrix and b2 a row of 10:

      hidden(r, k) = max( Σₖ' p(r,k')·W1(k',k) + b1(k), 0 ),      out(r, q) = Σₖ hidden(r,k)·W2(k,q) + b2(q).

  The body's two products go into zero accumulators, its changes of float format are the identity, and each bias is a
  row broadcast down the 64 rows.
-/
import proofs.«151677_j22093311771174_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Head

open Cert.KernelIdeal Idealize.ShloMosaic Idealize.ShloMosaic.TcCoe Idealize.SL.Sem

/-! ## Indices -/

/-- Row of `i`, column `k`, in the 64 × 128 operand. -/
abbrev pRow (i : S64x128.Idx) (k : Fin 128) : S64x128.Idx := fun a => match a with
  | ⟨0, _⟩ => ⟨(i 0).val, (i 0).isLt⟩
  | ⟨1, _⟩ => ⟨k.val, k.isLt⟩
/-- Row `k`, column of `i`, in the 128 × 128 matrix. -/
abbrev w1Col (i : S64x128.Idx) (k : Fin 128) : S128x128.Idx := fun a => match a with
  | ⟨0, _⟩ => ⟨k.val, k.isLt⟩
  | ⟨1, _⟩ => ⟨(i 1).val, (i 1).isLt⟩
/-- Row of `i`, column `k`, in the hidden 64 × 128 array, for an output index `i` of 64 × 10. -/
abbrev hRow (i : S64x10.Idx) (k : Fin 128) : S64x128.Idx := fun a => match a with
  | ⟨0, _⟩ => ⟨(i 0).val, (i 0).isLt⟩
  | ⟨1, _⟩ => ⟨k.val, k.isLt⟩
/-- Row `k`, column of `i`, in the 128 × 10 matrix. -/
abbrev w2Col (i : S64x10.Idx) (k : Fin 128) : S128x10.Idx := fun a => match a with
  | ⟨0, _⟩ => ⟨k.val, k.isLt⟩
  | ⟨1, _⟩ => ⟨(i 1).val, (i 1).isLt⟩
/-- Column of `i` in a row of 128. -/
abbrev b1At (i : S64x128.Idx) : S128.Idx := fun a => match a with
  | ⟨0, _⟩ => ⟨(i 1).val, (i 1).isLt⟩
/-- Column of `i` in a row of 10. -/
abbrev b2At (i : S64x10.Idx) : S10.Idx := fun a => match a with
  | ⟨0, _⟩ => ⟨(i 1).val, (i 1).isLt⟩

/-! ## The two products -/

theorem first_lhs_0 (i : S64x128.Idx) (q : dot_S64x128_S128x128_S64x128_1_0_0_1_n_n.contr.Idx) : (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem first_lhs_1 (i : S64x128.Idx) (q : dot_S64x128_S128x128_S64x128_1_0_0_1_n_n.contr.Idx) : (dot_S64x128_S128x128_S64x128_1_0_0_1_n_n.lhsIdx i q 1).val = (q ⟨0, by decide⟩).val :=
  dot_S64x128_S128x128_S64x128_1_0_0_1_n_n.lhsIdx_val_of_single rfl i q
theorem first_rhs_0 (i : S64x128.Idx) (q : dot_S64x128_S128x128_S64x128_1_0_0_1_n_n.contr.Idx) : (dot_S64x128_S128x128_S64x128_1_0_0_1_n_n.rhsIdx i q 0).val = (q ⟨0, by decide⟩).val :=
  dot_S64x128_S128x128_S64x128_1_0_0_1_n_n.rhsIdx_val_of_single rfl i q
theorem first_rhs_1 (i : S64x128.Idx) (q : dot_S64x128_S128x128_S64x128_1_0_0_1_n_n.contr.Idx) : (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- Entry `j` of the first product into a zero accumulator. -/
theorem first_product_apply {φ₁ φ₂ : FTy} (l : FVec Ideal S64x128 φ₁) (r : FVec Ideal S128x128 φ₂) (j : S64x128.Idx) :
    FloatOps.matmul dot_S64x128_S128x128_S64x128_1_0_0_1_n_n none l r (constant (F := Ideal) S64x128 .f32 0x00000000#32) j
      = ∑ k : Fin 128, l (pRow j k) * r (w1Col j k) := by
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx j ((ValueIdx.contrEquiv1 dot_S64x128_S128x128_S64x128_1_0_0_1_n_n 128 rfl rfl).symm k) = pRow j k := funext fun a => Fin.ext (by
    match a with
    | ⟨0, _⟩ => exact first_lhs_0 _ _
    | ⟨1, _⟩ => exact (first_lhs_1 _ _).trans hk)
  have er : dot_S64x128_S128x128_S64x128_1_0_0_1_n_n.rhsIdx j ((ValueIdx.contrEquiv1 dot_S64x128_S128x128_S64x128_1_0_0_1_n_n 128 rfl rfl).symm k) = w1Col j k := funext fun a => Fin.ext (by
    match a with
    | ⟨0, _⟩ => exact (first_rhs_0 _ _).trans hk
    | ⟨1, _⟩ => exact first_rhs_1 _ _)
  rw [el, er]

theorem second_lhs_0 (i : S64x10.Idx) (q : dot_S64x128_S128x10_S64x10_1_0_0_1_n_n.contr.Idx) : (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem second_lhs_1 (i : S64x10.Idx) (q : dot_S64x128_S128x10_S64x10_1_0_0_1_n_n.contr.Idx) : (dot_S64x128_S128x10_S64x10_1_0_0_1_n_n.lhsIdx i q 1).val = (q ⟨0, by decide⟩).val :=
  dot_S64x128_S128x10_S64x10_1_0_0_1_n_n.lhsIdx_val_of_single rfl i q
theorem second_rhs_0 (i : S64x10.Idx) (q : dot_S64x128_S128x10_S64x10_1_0_0_1_n_n.contr.Idx) : (dot_S64x128_S128x10_S64x10_1_0_0_1_n_n.rhsIdx i q 0).val = (q ⟨0, by decide⟩).val :=
  dot_S64x128_S128x10_S64x10_1_0_0_1_n_n.rhsIdx_val_of_single rfl i q
theorem second_rhs_1 (i : S64x10.Idx) (q : dot_S64x128_S128x10_S64x10_1_0_0_1_n_n.contr.Idx) : (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- Entry `j` of the second product into a zero accumulator. -/
theorem second_product_apply {φ₁ φ₂ : FTy} (l : FVec Ideal S64x128 φ₁) (r : FVec Ideal S128x10 φ₂) (j : S64x10.Idx) :
    FloatOps.matmul dot_S64x128_S128x10_S64x10_1_0_0_1_n_n none l r (constant (F := Ideal) S64x10 .f32 0x00000000#32) j
      = ∑ k : Fin 128, l (hRow j k) * r (w2Col j k) := by
  rw [Ideal.matmul_constant_zero_apply, ← Equiv.sum_comp (ValueIdx.contrEquiv1 dot_S64x128_S128x10_S64x10_1_0_0_1_n_n 128 rfl rfl).symm]
  refine Finset.sum_congr rfl fun k _ => ?_
  have hk := ValueIdx.contrEquiv1_symm_val dot_S64x128_S128x10_S64x10_1_0_0_1_n_n 128 rfl rfl k
  have el : dot_S64x128_S128x10_S64x10_1_0_0_1_n_n.lhsIdx j ((ValueIdx.contrEquiv1 dot_S64x128_S128x10_S64x10_1_0_0_1_n_n 128 rfl rfl).symm k) = hRow j k := funext fun a => Fin.ext (by
    match a with
    | ⟨0, _⟩ => exact second_lhs_0 _ _
    | ⟨1, _⟩ => exact (second_lhs_1 _ _).trans hk)
  have er : dot_S64x128_S128x10_S64x10_1_0_0_1_n_n.rhsIdx j ((ValueIdx.contrEquiv1 dot_S64x128_S128x10_S64x10_1_0_0_1_n_n 128 rfl rfl).symm k) = w2Col j k := funext fun a => Fin.ext (by
    match a with
    | ⟨0, _⟩ => exact (second_rhs_0 _ _).trans hk
    | ⟨1, _⟩ => exact second_rhs_1 _ _)
  rw [el, er]

/-! ## The bias rows -/

/-- A row of 128, made 1 × 128 and broadcast down 64 rows, read at `i`: the row at `i`'s column. -/
theorem bias1_apply (b : Vec Ideal S128 .f32) (i : S64x128.Idx)
    (h1 : S128.ShapeCasts S1x128) (h2 : S1x128.ShapeCasts S1x128) (h3 : S1x128.Broadcasts S64x128) :
    broadcastTo S64x128 (shapeCast S1x128 (shapeCast S1x128 b h1) h2) h3 i = b (b1At i) := by
  rw [shapeCast_self]
  rw [broadcastTo_apply _ h3 i (fun a => match a with | ⟨0, _⟩ => ⟨0, Nat.one_pos⟩ | ⟨1, _⟩ => ⟨(i 1).val, (i 1).isLt⟩)
    (fun a => by match a with
      | ⟨0, _⟩ => rfl
      | ⟨1, _⟩ => rfl)]
  refine (shapeCast_addUnit_apply (![128] : Fin 1 → Nat) b h1 _).trans (congrArg b (funext fun a => ?_))
  match a with
  | ⟨0, _⟩ => rfl

/-- A row of 10, made 1 × 10 and broadcast down 64 rows, read at `i`. -/
theorem bias2_apply (b : Vec Ideal S10 .f32) (i : S64x10.Idx)
    (h1 : S10.ShapeCasts S1x10) (h2 : S1x10.ShapeCasts S1x10) (h3 : S1x10.Broadcasts S64x10) :
    broadcastTo S64x10 (shapeCast S1x10 (shapeCast S1x10 b h1) h2) h3 i = b (b2At i) := by
  rw [shapeCast_self]
  rw [broadcastTo_apply _ h3 i (fun a => match a with | ⟨0, _⟩ => ⟨0, Nat.one_pos⟩ | ⟨1, _⟩ => ⟨(i 1).val, (i 1).isLt⟩)
    (fun a => by match a with
      | ⟨0, _⟩ => rfl
      | ⟨1, _⟩ => rfl)]
  refine (shapeCast_addUnit_apply (![10] : Fin 1 → Nat) b h1 _).trans (congrArg b (funext fun a => ?_))
  match a with
  | ⟨0, _⟩ => rfl

/-! ## The head -/

/-- The hidden layer's entry. -/
def hiddenAt (p : Vec Ideal S64x128 .f32) (w1 : Vec Ideal S128x128 .f32) (b1 : Vec Ideal S128 .f32) (i : S64x128.Idx) : EReal :=
  FloatOps.maximumf (F := Ideal) (φ := .f32) ((∑ k : Fin 128, p (pRow i k) * w1 (w1Col i k)) + b1 (b1At i)) (Ideal.ofBits .f32 0x00000000#32)

/-- The head's entry. -/
def headAt (p : Vec Ideal S64x128 .f32) (w1 : Vec Ideal S128x128 .f32) (b1 : Vec Ideal S128 .f32) (w2 : Vec Ideal S128x10 .f32) (b2 : Vec Ideal S10 .f32)
    (j : S64x10.Idx) : EReal :=
  (∑ k : Fin 128, hiddenAt p w1 b1 (hRow j k) * w2 (w2Col j k)) + b2 (b2At j)

theorem head_apply (p : Vec Ideal S64x128 .f32) (w1 : Vec Ideal S128x128 .f32) (b1 : Vec Ideal S128 .f32) (w2 : Vec Ideal S128x10 .f32) (b2 : Vec Ideal S10 .f32)
    (j : S64x10.Idx) :
    Gen.k3_pay1 (F := Ideal) p w1 b1 w2 b2 j = headAt p w1 b1 w2 b2 j := by
  unfold Gen.k3_pay1 headAt
  simp only [shapeCast_self (s := S64x128)]
  show FloatOps.addf (F := Ideal) (FloatOps.matmul (F := Ideal) dot_S64x128_S128x10_S64x10_1_0_0_1_n_n none _ _ _ j) (broadcastTo S64x10 _ _ j) = _
  rw [second_product_apply, bias2_apply]
  refine congrArg (· + b2 (b2At j)) (Finset.sum_congr rfl fun k _ => congrArg (· * w2 (w2Col j k)) ?_)
  show FloatOps.maximumf (F := Ideal) (FloatOps.addf (F := Ideal) (FloatOps.matmul (F := Ideal) dot_S64x128_S128x128_S64x128_1_0_0_1_n_n none _ _ _ (hRow j k)) (broadcastTo S64x128 _ _ (hRow j k))) _ = _
  rw [first_product_apply, bias1_apply]
  rfl

end Cert.KernelIdeal.Head

end
-- ==== Proof.Region3.lean ====
/-
  Region 3 (the head): what its output array holds when the region ends.

  The grid has one point. Every window's block is its whole array (block index 0 on every axis), so the one block
  written back is the whole 64 × 10 output: the head's entry, at every index, of the pooled array, the two weight
  matrices and the two bias rows as the region finds them.
-/
import proofs.«151677_j22093311771174_1_alg».proof.Proof.HeadProduct
import proofs.«151677_j22093311771174_1_alg».proof.Proof.Gen.KernelIdeal.Frame

set_option maxRecDepth 16384

noncomputable section

namespace Cert.KernelIdeal.Region3

open Cert.KernelIdeal Cert.KernelIdeal.Gen Cert.KernelIdeal.Head
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- The printed index maps at the grid's one point: every block index is 0. -/
theorem index_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

/-- The head of the arrays as the region finds them. -/
abbrev head (c : Dev nD) : (⟨S64x10, .f32⟩ : BufTy).Contents (Elt Ideal) := fun i =>
  headAt (V c main_v106) (V c main_arg9) (V c main_arg10) (V c main_arg11) (V c main_arg12) i

/-- What the one point writes back is the whole head. -/
theorem flushed_eq (c : Dev nD) (t : Fin cfg3.N) :
    (dat3 V c).flushed 5 t = ((cfg3.win 5).blk t).view.read (Elt Ideal) (head V c) := by
  show (cfg3.win 5).cut (grid3.coords t) ((dat3 V c).after 5 t) = _
  rw [after3_5]
  unfold out3_5
  rw [View.canon_unit_zero origin]
  simp only [View.ld_unit_zero (S := S64x128) origin, View.ld_unit_zero (S := S128x128) origin, View.ld_unit_zero (S := S128) origin1,
    View.ld_unit_zero (S := S128x10) origin, View.ld_unit_zero (S := S10) origin1]
  obtain ⟨e0, e0', e1, e1', e2, e3, e3', e4, e5, e5'⟩ := index_facts t
  have hp : (iblk3 V c 0 t : Vec Ideal S64x128 .f32) = V c main_v106 := funext fun y => by
    show V c main_v106 (((cfg3.win 0).blk t).view.emb y) = V c main_v106 y
    refine congrArg _ (funext fun a => Fin.ext ?_)
    match a with
    | ⟨0, _⟩ => show win3_0.index t (0 : Fin 2) * 64 + 1 * (y 0).val = (y 0).val; omega
    | ⟨1, _⟩ => show win3_0.index t (1 : Fin 2) * 128 + 1 * (y 1).val = (y 1).val; omega
  have hw1 : (iblk3 V c 1 t : Vec Ideal S128x128 .f32) = V c main_arg9 := funext fun y => by
    show V c main_arg9 (((cfg3.win 1).blk t).view.emb y) = V c main_arg9 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  have hb1 : (iblk3 V c 2 t : Vec Ideal S128 .f32) = V c main_arg10 := funext fun y => by
    show V c main_arg10 (((cfg3.win 2).blk t).view.emb y) = V c main_arg10 y
    refine congrArg _ (funext fun a => Fin.ext ?_)
    match a with
    | ⟨0, _⟩ => show win3_2.index t (0 : Fin 1) * 128 + 1 * (y 0).val = (y 0).val; omega
  have hw2 : (iblk3 V c 3 t : Vec Ideal S128x10 .f32) = V c main_arg11 := funext fun y => by
    show V c main_arg11 (((cfg3.win 3).blk t).view.emb y) = V c main_arg11 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 10 + 1 * (y 1).val = (y 1).val; omega
  have hb2 : (iblk3 V c 4 t : Vec Ideal S10 .f32) = V c main_arg12 := funext fun y => by
    show V c main_arg12 (((cfg3.win 4).blk t).view.emb y) = V c main_arg12 y
    refine congrArg _ (funext fun a => Fin.ext ?_)
    match a with
    | ⟨0, _⟩ => show win3_4.index t (0 : Fin 1) * 10 + 1 * (y 0).val = (y 0).val; omega
  funext j
  have hj : ((cfg3.win 5).blk t).view.emb j = j := funext fun a => Fin.ext (by
    match a with
    | ⟨0, _⟩ => show win3_5.index t (0 : Fin 2) * 64 + 1 * (j 0).val = (j 0).val; omega
    | ⟨1, _⟩ => show win3_5.index t (1 : Fin 2) * 10 + 1 * (j 1).val = (j 1).val; omega)
  show k3_pay1 (F := Ideal) (iblk3 V c 0 t) (iblk3 V c 1 t) (iblk3 V c 2 t) (iblk3 V c 3 t) (iblk3 V c 4 t) j
    = headAt (V c main_v106) (V c main_arg9) (V c main_arg10) (V c main_arg11) (V c main_arg12) (((cfg3.win 5).blk t).view.emb j)
  refine (head_apply (iblk3 V c 0 t) (iblk3 V c 1 t) (iblk3 V c 2 t) (iblk3 V c 3 t) (iblk3 V c 4 t) j).trans ?_
  rw [hj, hp, hw1, hb1, hw2, hb2]

/-- Every index of the output array lies in the one point's block. -/
theorem covered (i : S64x10.Idx) :
    ∃ t : Fin cfg3.N, (cfg3.win 5).flush t = true ∧ i ∈ ((cfg3.win 5).blk t).view.set := by
  have hi0 : (i 0).val < 64 := (i 0).isLt
  have hi1 : (i 1).val < 10 := (i 1).isLt
  obtain ⟨e0, e0', e1, e1', e2, e3, e3', e4, e5, e5'⟩ := index_facts t3_0
  refine ⟨t3_0, flush3_5 t3_0, ?_⟩
  show i ∈ ((View.whole main_v107).slice (win3_5.rect t3_0)).set
  rw [View.set_slice_whole, Rect.mem_set_unit]
  intro a
  match a with
  | ⟨0, _⟩ => show win3_5.index t3_0 (0 : Fin 2) * 64 ≤ (i 0).val ∧ (i 0).val < win3_5.index t3_0 (0 : Fin 2) * 64 + 64; omega
  | ⟨1, _⟩ => show win3_5.index t3_0 (1 : Fin 2) * 10 ≤ (i 1).val ∧ (i 1).val < win3_5.index t3_0 (1 : Fin 2) * 10 + 10; omega

/-- The output array when the region ends: the head of the arrays as the region found them. -/
theorem array_eq (c : Dev nD) : (dat3 V c).arrAt 5 cfg3.N = head V c :=
  (dat3 V c).arrAt_eq_of_cover 5 (head V c) (fun t _ => flushed_eq V c t) (covered)

end Cert.KernelIdeal.Region3

end
-- ==== Proof.Stretch0.lean ====
/-
  The host operations before the first region, read at the buffers that region stages.

  Before the first pallas_call the program gathers the rows of x named by the source row of each index pair, scales
  each gathered row by its orientation, and adds it into the row named by the pair's target (once for the upper pairs,
  once for the lower ones); and it cuts the first 128 × 128 slice out of each of the three weight stacks. These are the
  same operations, on the same arguments, as the reference's first stages: each buffer below IS the reference's stage
  of the launch arguments. The gathers and scatter-adds are never opened; the two sides' terms are one term.
-/
import proofs.«151677_j22093311771174_1_alg».proof.Proof.Gen.KernelIdeal.Frame
import proofs.«151677_j22093311771174_1_alg».proof.Proof.Gen.ReferenceIdeal.Read
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The oriented sum over the upper pairs, of the launch x. -/
theorem up (c : Dev nD) : W1 m ρ c (Proc.devRef .tc main_v21) = Cert.ReferenceIdeal.Read.val_main_v21 (F := Ideal) (m ((c : Thread nD τ).loc main_arg0)) (m ((c : Thread nD τ).loc main_arg1)) (m ((c : Thread nD τ).loc main_arg3)) := by
  show StableHlo.after hostOps0 (W0 m ρ c) (Proc.devRef .tc main_v21) = _
  after_results_simp
  rfl

set_option maxHeartbeats 4000000 in
/-- The oriented sum over the lower pairs, of the launch x. -/
theorem dn (c : Dev nD) : W1 m ρ c (Proc.devRef .tc main_v33) = Cert.ReferenceIdeal.Read.val_main_v33 (F := Ideal) (m ((c : Thread nD τ).loc main_arg0)) (m ((c : Thread nD τ).loc main_arg2)) (m ((c : Thread nD τ).loc main_arg4)) := by
  show StableHlo.after hostOps0 (W0 m ρ c) (Proc.devRef .tc main_v33) = _
  after_results_simp
  rfl

set_option maxHeartbeats 4000000 in
/-- x itself is as launched: no operation of the stretch writes an argument. -/
theorem self (c : Dev nD) : W1 m ρ c (Proc.devRef .tc main_arg0) = m ((c : Thread nD τ).loc main_arg0) := by
  show StableHlo.after hostOps0 (W0 m ρ c) (Proc.devRef .tc main_arg0) = _
  after_results_simp

set_option maxHeartbeats 4000000 in
/-- The first slice of the upper weights. -/
theorem wu (c : Dev nD) : W1 m ρ c (Proc.devRef .tc main_v35) = Cert.ReferenceIdeal.Read.val_main_v35 (F := Ideal) (m ((c : Thread nD τ).loc main_arg6)) := by
  show StableHlo.after hostOps0 (W0 m ρ c) (Proc.devRef .tc main_v35) = _
  after_results_simp
  rfl

set_option maxHeartbeats 4000000 in
/-- The first slice of the lower weights. -/
theorem wd (c : Dev nD) : W1 m ρ c (Proc.devRef .tc main_v37) = Cert.ReferenceIdeal.Read.val_main_v38 (F := Ideal) (m ((c : Thread nD τ).loc main_arg7)) := by
  show StableHlo.after hostOps0 (W0 m ρ c) (Proc.devRef .tc main_v37) = _
  after_results_simp
  rfl

set_option maxHeartbeats 4000000 in
/-- The first slice of the self weights. -/
theorem ws (c : Dev nD) : W1 m ρ c (Proc.devRef .tc main_v39) = Cert.ReferenceIdeal.Read.val_main_v42 (F := Ideal) (m ((c : Thread nD τ).loc main_arg8)) := by
  show StableHlo.after hostOps0 (W0 m ρ c) (Proc.devRef .tc main_v39) = _
  after_results_simp
  rfl

end Cert.KernelIdeal.Stretch0

end
-- ==== Proof.Carried.lean ====
/-
  Buffers that nothing rewrites, at the later boundaries.

  The first stretch of host operations computes, once, the four rows of indices (the upper pairs' source and target rows,
  the lower pairs' source and target rows, each a row of an index argument made one-dimensional) and the two orientation
  columns. No later host operation writes them and no region has them among its arrays, so at the boundary after the
  first region, and again after the second, they still hold what the first stretch computed: the reference's stages
  of the same names. The same holds, more simply, of the argument arrays themselves.
-/
import proofs.«151677_j22093311771174_1_alg».proof.Proof.Gen.KernelIdeal.Frame
import proofs.«151677_j22093311771174_1_alg».proof.Proof.Gen.ReferenceIdeal.Read
import Idealize.ShloMosaic.Lib.StableHlo.Run

set_option maxRecDepth 16384

noncomputable section

namespace Cert.KernelIdeal.Carried

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first region -/

set_option maxHeartbeats 4000000 in
/-- The upper pairs' source rows. -/
theorem upSrc_2 (c : Dev nD) : W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp
  rfl

set_option maxHeartbeats 4000000 in
/-- The upper pairs' target rows. -/
theorem upDst_2 (c : Dev nD) : W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp
  rfl

set_option maxHeartbeats 4000000 in
/-- The lower pairs' source rows. -/
theorem dnSrc_2 (c : Dev nD) : W2 m ρ c (Proc.devRef .tc main_v5) = Cert.ReferenceIdeal.Read.val_main_v5 (F := Ideal) (m ((c : Thread nD τ).loc main_arg2)) := by
  rw [W2_of_ne m ρ c main_v5 (by decide)]
  show StableHlo.after hostOps0 (W0 m ρ c) (Proc.devRef .tc main_v5) = _
  after_results_simp
  rfl

set_option maxHeartbeats 4000000 in
/-- The lower pairs' target rows. -/
theorem dnDst_2 (c : Dev nD) : W2 m ρ c (Proc.devRef .tc main_v7) = Cert.ReferenceIdeal.Read.val_main_v7 (F := Ideal) (m ((c : Thread nD τ).loc main_arg2)) := by
  rw [W2_of_ne m ρ c main_v7 (by decide)]
  show StableHlo.after hostOps0 (W0 m ρ c) (Proc.devRef .tc main_v7) = _
  after_results_simp
  rfl

set_option maxHeartbeats 4000000 in
/-- The upper orientations as a column. -/
theorem upSign_2 (c : Dev nD) : W2 m ρ c (Proc.devRef .tc main_v8) = Cert.ReferenceIdeal.Read.val_main_v8 (F := Ideal) (m ((c : Thread nD τ).loc main_arg3)) := by
  rw [W2_of_ne m ρ c main_v8 (by decide)]
  show StableHlo.after hostOps0 (W0 m ρ c) (Proc.devRef .tc main_v8) = _
  after_results_simp
  rfl

set_option maxHeartbeats 4000000 in
/-- The lower orientations as a column. -/
theorem dnSign_2 (c : Dev nD) : W2 m ρ c (Proc.devRef .tc main_v9) = Cert.ReferenceIdeal.Read.val_main_v9 (F := Ideal) (m ((c : Thread nD τ).loc main_arg4)) := by
  rw [W2_of_ne m ρ c main_v9 (by decide)]
  show StableHlo.after hostOps0 (W0 m ρ c) (Proc.devRef .tc main_v9) = _
  after_results_simp
  rfl

set_option maxHeartbeats 4000000 in
/-- The upper weight stack. -/
theorem upStack_2 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp

set_option maxHeartbeats 4000000 in
/-- The lower weight stack. -/
theorem dnStack_2 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp

set_option maxHeartbeats 4000000 in
/-- The self weight stack. -/
theorem selfStack_2 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp

set_option maxHeartbeats 4000000 in
/-- The graph index of each row. -/
theorem batch_2 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp

/-! ## After the second region -/

set_option maxHeartbeats 4000000 in
theorem upSrc_4 (c : Dev nD) : W4 m ρ c (Proc.devRef .tc main_v1) = Cert.ReferenceIdeal.Read.val_main_v1 (F := Ideal) (m ((c : Thread nD τ).loc main_arg1)) := by
  rw [W4_of_ne m ρ c main_v1 (by decide)]
  show StableHlo.after hostOps1 (W2 m ρ c) (Proc.devRef .tc main_v1) = _
  after_results_simp
  exact upSrc_2 m ρ c

set_option maxHeartbeats 4000000 in
theorem upDst_4 (c : Dev nD) : W4 m ρ c (Proc.devRef .tc main_v3) = Cert.ReferenceIdeal.Read.val_main_v3 (F := Ideal) (m ((c : Thread nD τ).loc main_arg1)) := by
  rw [W4_of_ne m ρ c main_v3 (by decide)]
  show StableHlo.after hostOps1 (W2 m ρ c) (Proc.devRef .tc main_v3) = _
  after_results_simp
  exact upDst_2 m ρ c

set_option maxHeartbeats 4000000 in
theorem dnSrc_4 (c : Dev nD) : W4 m ρ c (Proc.devRef .tc main_v5) = Cert.ReferenceIdeal.Read.val_main_v5 (F := Ideal) (m ((c : Thread nD τ).loc main_arg2)) := by
  rw [W4_of_ne m ρ c main_v5 (by decide)]
  show StableHlo.after hostOps1 (W2 m ρ c) (Proc.devRef .tc main_v5) = _
  after_results_simp
  exact dnSrc_2 m ρ c

set_option maxHeartbeats 4000000 in
theorem dnDst_4 (c : Dev nD) : W4 m ρ c (Proc.devRef .tc main_v7) = Cert.ReferenceIdeal.Read.val_main_v7 (F := Ideal) (m ((c : Thread nD τ).loc main_arg2)) := by
  rw [W4_of_ne m ρ c main_v7 (by decide)]
  show StableHlo.after hostOps1 (W2 m ρ c) (Proc.devRef .tc main_v7) = _
  after_results_simp
  exact dnDst_2 m ρ c

set_option maxHeartbeats 4000000 in
theorem upSign_4 (c : Dev nD) : W4 m ρ c (Proc.devRef .tc main_v8) = Cert.ReferenceIdeal.Read.val_main_v8 (F := Ideal) (m ((c : Thread nD τ).loc main_arg3)) := by
  rw [W4_of_ne m ρ c main_v8 (by decide)]
  show StableHlo.after hostOps1 (W2 m ρ c) (Proc.devRef .tc main_v8) = _
  after_results_simp
  exact upSign_2 m ρ c

set_option maxHeartbeats 4000000 in
theorem dnSign_4 (c : Dev nD) : W4 m ρ c (Proc.devRef .tc main_v9) = Cert.ReferenceIdeal.Read.val_main_v9 (F := Ideal) (m ((c : Thread nD τ).loc main_arg4)) := by
  rw [W4_of_ne m ρ c main_v9 (by decide)]
  show StableHlo.after hostOps1 (W2 m ρ c) (Proc.devRef .tc main_v9) = _
  after_results_simp
  exact dnSign_2 m ρ c

set_option maxHeartbeats 4000000 in
theorem upStack_4 (c : Dev nD) : W4 m ρ c (Proc.devRef .tc main_arg6) = m ((c : Thread nD τ).loc main_arg6) := by
  rw [W4_of_ne m ρ c main_arg6 (by decide)]
  show StableHlo.after hostOps1 (W2 m ρ c) (Proc.devRef .tc main_arg6) = _
  after_results_simp
  exact upStack_2 m ρ c

set_option maxHeartbeats 4000000 in
theorem dnStack_4 (c : Dev nD) : W4 m ρ c (Proc.devRef .tc main_arg7) = m ((c : Thread nD τ).loc main_arg7) := by
  rw [W4_of_ne m ρ c main_arg7 (by decide)]
  show StableHlo.after hostOps1 (W2 m ρ c) (Proc.devRef .tc main_arg7) = _
  after_results_simp
  exact dnStack_2 m ρ c

set_option maxHeartbeats 4000000 in
theorem selfStack_4 (c : Dev nD) : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results_simp
  exact selfStack_2 m ρ c

set_option maxHeartbeats 4000000 in
theorem batch_4 (c : Dev nD) : W4 m ρ c (Proc.devRef .tc main_arg5) = m ((c : Thread nD τ).loc main_arg5) := by
  rw [W4_of_ne m ρ c main_arg5 (by decide)]
  show StableHlo.after hostOps1 (W2 m ρ c) (Proc.devRef .tc main_arg5) = _
  after_results_simp
  exact batch_2 m ρ c

/-! ## After the third region -/

set_option maxHeartbeats 4000000 in
theorem batch_6 (c : Dev nD) : W6 m ρ c (Proc.devRef .tc main_arg5) = m ((c : Thread nD τ).loc main_arg5) := by
  rw [W6_of_ne m ρ c main_arg5 (by decide)]
  show StableHlo.after hostOps2 (W4 m ρ c) (Proc.devRef .tc main_arg5) = _
  after_results_simp
  exact batch_4 m ρ c

/-! ## At the head's entry: its four parameter arrays are as launched (the head only reads them, so they are the same
    before and after it, and after it they are the launch contents) -/

theorem w1_7 (c : Dev nD) : W7 m ρ c (Proc.devRef .tc main_arg9) = m ((c : Thread nD τ).loc main_arg9) :=
  ((W8_arr m ρ c 1).trans (((dat3 (V7 m ρ) c).arrAt_in 1 rfl _).trans (A_eq3 (V7 m ρ) c 1))).symm.trans (W8_main_arg9 m ρ c)
theorem b1_7 (c : Dev nD) : W7 m ρ c (Proc.devRef .tc main_arg10) = m ((c : Thread nD τ).loc main_arg10) :=
  ((W8_arr m ρ c 2).trans (((dat3 (V7 m ρ) c).arrAt_in 2 rfl _).trans (A_eq3 (V7 m ρ) c 2))).symm.trans (W8_main_arg10 m ρ c)
theorem w2_7 (c : Dev nD) : W7 m ρ c (Proc.devRef .tc main_arg11) = m ((c : Thread nD τ).loc main_arg11) :=
  ((W8_arr m ρ c 3).trans (((dat3 (V7 m ρ) c).arrAt_in 3 rfl _).trans (A_eq3 (V7 m ρ) c 3))).symm.trans (W8_main_arg11 m ρ c)
theorem b2_7 (c : Dev nD) : W7 m ρ c (Proc.devRef .tc main_arg12) = m ((c : Thread nD τ).loc main_arg12) :=
  ((W8_arr m ρ c 4).trans (((dat3 (V7 m ρ) c).arrAt_in 4 rfl _).trans (A_eq3 (V7 m ρ) c 4))).symm.trans (W8_main_arg12 m ρ c)

end Cert.KernelIdeal.Carried

end
-- ==== Proof.RefStages.lean ====
/-
  The reference's stages in the layer's and the head's terms.

  Each of the reference's three layers is two matrix products added, plus a third: read at an index, with each
  `dot_general` the plain sum over the contracted axis, it is the layer's combine (first + second) + third of the
  previous stage's oriented sums, the previous stage itself, and the layer's weight slices. Its result is the head's
  entry of the pooled stage: a product, a bias row, the maximum with zero, a product, a bias row. No regrouping of a
  sum is needed on either side.
-/
import proofs.«151677_j22093311771174_1_alg».proof.Proof.LayerSpec
import proofs.«151677_j22093311771174_1_alg».proof.Proof.HeadProduct
import proofs.«151677_j22093311771174_1_alg».proof.Proof.Gen.ReferenceIdeal.Read

noncomputable section

namespace Cert.ReferenceIdeal.Stages

open Cert.ReferenceIdeal Cert.ReferenceIdeal.Read Idealize.ShloMosaic Idealize.ShloMosaic.TcCoe Idealize.SL.Sem
open Cert.KernelIdeal.Tile Cert.KernelIdeal.Head

/-- The first layer's stage is the combine of the launch x's oriented sums, x, and the first weight slices. -/
theorem layer0 (x0 : (⟨S100000x128, .f32⟩ : BufTy).Contents (Elt Ideal)) (x1 : (⟨S2x1600000, .i32⟩ : BufTy).Contents (Elt Ideal)) (x2 : (⟨S2x1600000, .i32⟩ : BufTy).Contents (Elt Ideal)) (x3 : (⟨S1600000, .f32⟩ : BufTy).Contents (Elt Ideal)) (x4 : (⟨S1600000, .f32⟩ : BufTy).Contents (Elt Ideal)) (x6 : (⟨S3x128x128, .f32⟩ : BufTy).Contents (Elt Ideal)) (x7 : (⟨S3x128x128, .f32⟩ : BufTy).Contents (Elt Ideal)) (x8 : (⟨S3x128x128, .f32⟩ : BufTy).Contents (Elt Ideal)) :
    val_main_v44 (F := Ideal) x0 x1 x2 x3 x4 x6 x7 x8
      = layerAt (val_main_v21 (F := Ideal) x0 x1 x3) (val_main_v33 (F := Ideal) x0 x2 x4) x0 (val_main_v35 (F := Ideal) x6) (val_main_v38 (F := Ideal) x7) (val_main_v42 (F := Ideal) x8) := by
  funext i
  rw [val_main_v44_apply, val_main_v40_apply, val_main_v36_apply, val_main_v39_apply, val_main_v43_apply]
  rfl

/-- The second layer's stage, of the first layer's. -/
theorem layer1 (x0 : (⟨S100000x128, .f32⟩ : BufTy).Contents (Elt Ideal)) (x1 : (⟨S2x1600000, .i32⟩ : BufTy).Contents (Elt Ideal)) (x2 : (⟨S2x1600000, .i32⟩ : BufTy).Contents (Elt Ideal)) (x3 : (⟨S1600000, .f32⟩ : BufTy).Contents (Elt Ideal)) (x4 : (⟨S1600000, .f32⟩ : BufTy).Contents (Elt Ideal)) (x6 : (⟨S3x128x128, .f32⟩ : BufTy).Contents (Elt Ideal)) (x7 : (⟨S3x128x128, .f32⟩ : BufTy).Contents (Elt Ideal)) (x8 : (⟨S3x128x128, .f32⟩ : BufTy).Contents (Elt Ideal)) :
    val_main_v79 (F := Ideal) x0 x1 x2 x3 x4 x6 x7 x8
      = layerAt (val_main_v56 (F := Ideal) x0 x1 x2 x3 x4 x6 x7 x8) (val_main_v68 (F := Ideal) x0 x1 x2 x3 x4 x6 x7 x8) (val_main_v44 (F := Ideal) x0 x1 x2 x3 x4 x6 x7 x8) (val_main_v70 (F := Ideal) x6) (val_main_v73 (F := Ideal) x7) (val_main_v77 (F := Ideal) x8) := by
  funext i
  rw [val_main_v79_apply, val_main_v75_apply, val_main_v71_apply, val_main_v74_apply, val_main_v78_apply]
  rfl

/-- The third layer's stage, of the second layer's. -/
theorem layer2 (x0 : (⟨S100000x128, .f32⟩ : BufTy).Contents (Elt Ideal)) (x1 : (⟨S2x1600000, .i32⟩ : BufTy).Contents (Elt Ideal)) (x2 : (⟨S2x1600000, .i32⟩ : BufTy).Contents (Elt Ideal)) (x3 : (⟨S1600000, .f32⟩ : BufTy).Contents (Elt Ideal)) (x4 : (⟨S1600000, .f32⟩ : BufTy).Contents (Elt Ideal)) (x6 : (⟨S3x128x128, .f32⟩ : BufTy).Contents (Elt Ideal)) (x7 : (⟨S3x128x128, .f32⟩ : BufTy).Contents (Elt Ideal)) (x8 : (⟨S3x128x128, .f32⟩ : BufTy).Contents (Elt Ideal)) :
    val_main_v114 (F := Ideal) x0 x1 x2 x3 x4 x6 x7 x8
      = layerAt (val_main_v91 (F := Ideal) x0 x1 x2 x3 x4 x6 x7 x8) (val_main_v103 (F := Ideal) x0 x1 x2 x3 x4 x6 x7 x8) (val_main_v79 (F := Ideal) x0 x1 x2 x3 x4 x6 x7 x8) (val_main_v105 (F := Ideal) x6) (val_main_v108 (F := Ideal) x7) (val_main_v112 (F := Ideal) x8) := by
  funext i
  rw [val_main_v114_apply, val_main_v110_apply, val_main_v106_apply, val_main_v109_apply, val_main_v113_apply]
  rfl

/-- The result is the head's entry of the pooled stage. -/
theorem result (x0 : (⟨S100000x128, .f32⟩ : BufTy).Contents (Elt Ideal)) (x1 : (⟨S2x1600000, .i32⟩ : BufTy).Contents (Elt Ideal)) (x2 : (⟨S2x1600000, .i32⟩ : BufTy).Contents (Elt Ideal)) (x3 : (⟨S1600000, .f32⟩ : BufTy).Contents (Elt Ideal)) (x4 : (⟨S1600000, .f32⟩ : BufTy).Contents (Elt Ideal)) (x5 : (⟨S100000, .i32⟩ : BufTy).Contents (Elt Ideal)) (x6 : (⟨S3x128x128, .f32⟩ : BufTy).Contents (Elt Ideal)) (x7 : (⟨S3x128x128, .f32⟩ : BufTy).Contents (Elt Ideal)) (x8 : (⟨S3x128x128, .f32⟩ : BufTy).Contents (Elt Ideal)) (x9 : (⟨S128x128, .f32⟩ : BufTy).Contents (Elt Ideal)) (x10 : (⟨S128, .f32⟩ : BufTy).Contents (Elt Ideal)) (x11 : (⟨S128x10, .f32⟩ : BufTy).Contents (Elt Ideal)) (x12 : (⟨S10, .f32⟩ : BufTy).Contents (Elt Ideal)) (i : S64x10.Idx) :
    val_main_v127 (F := Ideal) x0 x1 x2 x3 x4 x5 x6 x7 x8 x9 x10 x11 x12 i
      = headAt (val_main_v118 (F := Ideal) x0 x1 x2 x3 x4 x5 x6 x7 x8) x9 x10 x11 x12 i := by
  rw [val_main_v127_apply, val_main_v124_apply, val_main_v126_apply, val_main_v125_apply]
  unfold headAt
  refine congrArg₂ (· + ·) (Finset.sum_congr rfl fun k _ => congrArg (· * x11 (ridx_main_v124 i k)) ?_) rfl
  rw [val_main_v123_apply, val_main_v122_apply, val_main_v119_apply, val_main_v121_apply, val_main_v120_apply, val_main_call0_v0_apply, val_main_call0_cst_apply]
  rfl

end Cert.ReferenceIdeal.Stages

end
-- ==== Proof.KernelStages.lean ====
/-
  The kernel's buffers at the segment boundaries are the reference's stages.

  Going down @main: the first region's output is the first layer's stage (its inputs are the first stretch's
  buffers, which are the reference's first stages, and a region's output is the layer's combine of its inputs). The
  second stretch gathers, orients and scatter-adds THAT array with the index rows and orientation columns the first
  stretch left, and cuts the second weight slices: the reference's next stages, term for term. So the second region's
  output is the second layer's stage; likewise the third. The last stretch takes absolute values and adds each row
  into its graph's row: the pooled stage. The head's output, the program's result, is then the reference's result.
-/
import proofs.«151677_j22093311771174_1_alg».proof.Proof.Region0
import proofs.«151677_j22093311771174_1_alg».proof.Proof.Region1
import proofs.«151677_j22093311771174_1_alg».proof.Proof.Region2
import proofs.«151677_j22093311771174_1_alg».proof.Proof.Region3
import proofs.«151677_j22093311771174_1_alg».proof.Proof.Stretch0
import proofs.«151677_j22093311771174_1_alg».proof.Proof.Carried
import proofs.«151677_j22093311771174_1_alg».proof.Proof.RefStages

set_option maxRecDepth 16384

noncomputable section

namespace Cert.KernelIdeal.Stages

open Cert.KernelIdeal Cert.KernelIdeal.Gen Cert.KernelIdeal.Tile Cert.KernelIdeal.Head
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first layer -/

/-- The first region's output is the first layer's stage. -/
theorem layer0 (c : Dev nD) : W2 m ρ c (Proc.devRef .tc main_v40) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine ((W2_arr m ρ c 6).trans (Region0.array_eq (V1 m ρ) c)).trans ?_
  rw [Cert.ReferenceIdeal.Stages.layer0]
  show layerAt (W1 m ρ c (Proc.devRef .tc main_v21)) (W1 m ρ c (Proc.devRef .tc main_v33)) (W1 m ρ c (Proc.devRef .tc main_arg0))
    (W1 m ρ c (Proc.devRef .tc main_v35)) (W1 m ρ c (Proc.devRef .tc main_v37)) (W1 m ρ c (Proc.devRef .tc main_v39)) = _
  rw [Stretch0.up, Stretch0.dn, Stretch0.self, Stretch0.wu, Stretch0.wd, Stretch0.ws]

/-! ## The second layer -/

set_option maxHeartbeats 4000000 in
/-- The oriented sum over the upper pairs, of the first layer's stage. -/
theorem up1 (c : Dev nD) : W3 m ρ c (Proc.devRef .tc main_v52) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps1 (W2 m ρ c) (Proc.devRef .tc main_v52) = _
  after_results_simp
  rw [layer0 m ρ c, Carried.upSrc_2 m ρ c, Carried.upDst_2 m ρ c, Carried.upSign_2 m ρ c]
  rfl

set_option maxHeartbeats 4000000 in
/-- The oriented sum over the lower pairs, of the first layer's stage. -/
theorem dn1 (c : Dev nD) : W3 m ρ c (Proc.devRef .tc main_v64) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps1 (W2 m ρ c) (Proc.devRef .tc main_v64) = _
  after_results_simp
  rw [layer0 m ρ c, Carried.dnSrc_2 m ρ c, Carried.dnDst_2 m ρ c, Carried.dnSign_2 m ρ c]
  rfl

set_option maxHeartbeats 4000000 in
/-- The first layer's stage itself: the stretch does not write it. -/
theorem self1 (c : Dev nD) : W3 m ρ c (Proc.devRef .tc main_v40) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps1 (W2 m ρ c) (Proc.devRef .tc main_v40) = _
  after_results_simp
  exact layer0 m ρ c

set_option maxHeartbeats 4000000 in
/-- The second slice of the upper weights. -/
theorem wu1 (c : Dev nD) : W3 m ρ c (Proc.devRef .tc main_v66) = Cert.ReferenceIdeal.Read.val_main_v70 (F := Ideal) (m ((c : Thread nD τ).loc main_arg6)) := by
  show StableHlo.after hostOps1 (W2 m ρ c) (Proc.devRef .tc main_v66) = _
  after_results_simp
  rw [Carried.upStack_2 m ρ c]
  rfl

set_option maxHeartbeats 4000000 in
/-- The second slice of the lower weights. -/
theorem wd1 (c : Dev nD) : W3 m ρ c (Proc.devRef .tc main_v68) = Cert.ReferenceIdeal.Read.val_main_v73 (F := Ideal) (m ((c : Thread nD τ).loc main_arg7)) := by
  show StableHlo.after hostOps1 (W2 m ρ c) (Proc.devRef .tc main_v68) = _
  after_results_simp
  rw [Carried.dnStack_2 m ρ c]
  rfl

set_option maxHeartbeats 4000000 in
/-- The second slice of the self weights. -/
theorem ws1 (c : Dev nD) : W3 m ρ c (Proc.devRef .tc main_v70) = Cert.ReferenceIdeal.Read.val_main_v77 (F := Ideal) (m ((c : Thread nD τ).loc main_arg8)) := by
  show StableHlo.after hostOps1 (W2 m ρ c) (Proc.devRef .tc main_v70) = _
  after_results_simp
  rw [Carried.selfStack_2 m ρ c]
  rfl

/-- The second region's output is the second layer's stage. -/
theorem layer1 (c : Dev nD) : W4 m ρ c (Proc.devRef .tc main_v71) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine ((W4_arr m ρ c 6).trans (Region1.array_eq (V3 m ρ) c)).trans ?_
  rw [Cert.ReferenceIdeal.Stages.layer1]
  show layerAt (W3 m ρ c (Proc.devRef .tc main_v52)) (W3 m ρ c (Proc.devRef .tc main_v64)) (W3 m ρ c (Proc.devRef .tc main_v40))
    (W3 m ρ c (Proc.devRef .tc main_v66)) (W3 m ρ c (Proc.devRef .tc main_v68)) (W3 m ρ c (Proc.devRef .tc main_v70)) = _
  rw [up1, dn1, self1, wu1, wd1, ws1]

/-! ## The third layer -/

set_option maxHeartbeats 4000000 in
/-- The oriented sum over the upper pairs, of the second layer's stage. -/
theorem up2 (c : Dev nD) : W5 m ρ c (Proc.devRef .tc main_v83) = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps2 (W4 m ρ c) (Proc.devRef .tc main_v83) = _
  after_results_simp
  rw [layer1 m ρ c, Carried.upSrc_4 m ρ c, Carried.upDst_4 m ρ c, Carried.upSign_4 m ρ c]
  rfl

set_option maxHeartbeats 4000000 in
/-- The oriented sum over the lower pairs, of the second layer's stage. -/
theorem dn2 (c : Dev nD) : W5 m ρ c (Proc.devRef .tc main_v95) = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps2 (W4 m ρ c) (Proc.devRef .tc main_v95) = _
  after_results_simp
  rw [layer1 m ρ c, Carried.dnSrc_4 m ρ c, Carried.dnDst_4 m ρ c, Carried.dnSign_4 m ρ c]
  rfl

set_option maxHeartbeats 4000000 in
/-- The second layer's stage itself. -/
theorem self2 (c : Dev nD) : W5 m ρ c (Proc.devRef .tc main_v71) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps2 (W4 m ρ c) (Proc.devRef .tc main_v71) = _
  after_results_simp
  exact layer1 m ρ c

set_option maxHeartbeats 4000000 in
/-- The third slice of the upper weights. -/
theorem wu2 (c : Dev nD) : W5 m ρ c (Proc.devRef .tc main_v97) = Cert.ReferenceIdeal.Read.val_main_v105 (F := Ideal) (m ((c : Thread nD τ).loc main_arg6)) := by
  show StableHlo.after hostOps2 (W4 m ρ c) (Proc.devRef .tc main_v97) = _
  after_results_simp
  rw [Carried.upStack_4 m ρ c]
  rfl

set_option maxHeartbeats 4000000 in
/-- The third slice of the lower weights. -/
theorem wd2 (c : Dev nD) : W5 m ρ c (Proc.devRef .tc main_v99) = Cert.ReferenceIdeal.Read.val_main_v108 (F := Ideal) (m ((c : Thread nD τ).loc main_arg7)) := by
  show StableHlo.after hostOps2 (W4 m ρ c) (Proc.devRef .tc main_v99) = _
  after_results_simp
  rw [Carried.dnStack_4 m ρ c]
  rfl

set_option maxHeartbeats 4000000 in
/-- The third slice of the self weights. -/
theorem ws2 (c : Dev nD) : W5 m ρ c (Proc.devRef .tc main_v101) = Cert.ReferenceIdeal.Read.val_main_v112 (F := Ideal) (m ((c : Thread nD τ).loc main_arg8)) := by
  show StableHlo.after hostOps2 (W4 m ρ c) (Proc.devRef .tc main_v101) = _
  after_results_simp
  rw [Carried.selfStack_4 m ρ c]
  rfl

/-- The third region's output is the third layer's stage. -/
theorem layer2 (c : Dev nD) : W6 m ρ c (Proc.devRef .tc main_v102) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine ((W6_arr m ρ c 6).trans (Region2.array_eq (V5 m ρ) c)).trans ?_
  rw [Cert.ReferenceIdeal.Stages.layer2]
  show layerAt (W5 m ρ c (Proc.devRef .tc main_v83)) (W5 m ρ c (Proc.devRef .tc main_v95)) (W5 m ρ c (Proc.devRef .tc main_v71))
    (W5 m ρ c (Proc.devRef .tc main_v97)) (W5 m ρ c (Proc.devRef .tc main_v99)) (W5 m ρ c (Proc.devRef .tc main_v101)) = _
  rw [up2, dn2, self2, wu2, wd2, ws2]

/-! ## Pooling and the head -/

set_option maxHeartbeats 4000000 in
/-- Each row's absolute values added into its graph's row: the pooled stage. -/
theorem pooled (c : Dev nD) : W7 m ρ c (Proc.devRef .tc main_v106) = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W6 m ρ c) (Proc.devRef .tc main_v106) = _
  after_results_simp
  rw [layer2 m ρ c, Carried.batch_6 m ρ c]
  rfl

/-- The head's output, the program's result, is the reference's result. -/
theorem result (c : Dev nD) : W8 m ρ c (Proc.devRef .tc main_v107) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W8_arr m ρ c 5).trans (Region3.array_eq (V7 m ρ) c)).trans ?_
  funext i
  rw [Cert.ReferenceIdeal.Stages.result]
  show headAt (W7 m ρ c (Proc.devRef .tc main_v106)) (W7 m ρ c (Proc.devRef .tc main_arg9)) (W7 m ρ c (Proc.devRef .tc main_arg10))
    (W7 m ρ c (Proc.devRef .tc main_arg11)) (W7 m ρ c (Proc.devRef .tc main_arg12)) i = _
  rw [pooled, Carried.w1_7, Carried.b1_7, Carried.w2_7, Carried.b2_7]

end Cert.KernelIdeal.Stages

end
-- ==== Proof.Claims.lean ====
/-
  The five claims.

  Frames: the two kernel programs' frames are the launch theorem for four regions among host stretches, every region of
  the class whose body loads, computes and stores through whole rectangles; the reference has no kernel, and its frame
  is its run with the result dropped. The idealization rewrote nothing, so `preserves` is `True`.

  Equivalence on the extended reals. Both programs compute, three times over, x ↦ (U(x)·Wu + D(x)·Wd) + x·Ws, where
  U(x) and D(x) gather rows of x by the source rows of the upper and lower index pairs, scale each by its orientation and
  add it into the pair's target row; then the row-wise absolute values are added into each row's graph, and a two-layer
  head with biases and a maximum with zero is applied. The kernel computes each layer's combine in twenty row tiles,
  with the products' operands passed through a narrower float format and accumulated into zero, and the head in one
  block; on the extended reals a change of format is the identity and 0 + s = s, so each tile's entry is the same three
  sums the reference's `dot_general`s are, with the same grouping, and the tiles cover the rows. The gathers and
  scatter-adds are literally the same operations on both sides. No law that needs finiteness is used: the precondition
  is not opened.
-/
import proofs.«151677_j22093311771174_1_alg».proof.Defs
import proofs.«151677_j22093311771174_1_alg».proof.Proof.Gen.Kernel.Frame
import proofs.«151677_j22093311771174_1_alg».proof.Proof.Gen.KernelIdeal.Frame
import proofs.«151677_j22093311771174_1_alg».proof.Proof.Gen.ReferenceIdeal.Run
import proofs.«151677_j22093311771174_1_alg».proof.Proof.Gen.ReferenceIdeal.Read
import proofs.«151677_j22093311771174_1_alg».proof.Proof.Gen.Pre_finite_inputs
import proofs.«151677_j22093311771174_1_alg».proof.Proof.KernelRun
import proofs.«151677_j22093311771174_1_alg».proof.Proof.KernelStages

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the thirteen arguments both idealized programs run, and end with the same result: the
    kernel's last boundary at its result buffer is the reference's last stage of the launch arguments, and the
    reference's run ends at that stage of its own, equal, arguments. -/
theorem algebraic : Cert.algebraic_KernelIdeal_ReferenceIdeal := by
  intro m ρ m' ρ' _ hagree
  refine ⟨fun c => Cert.KernelIdeal.Gen.W8 m ρ c (Proc.devRef .tc Cert.KernelIdeal.main_v107), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v127_eq, a0, a1, a2, a3, a4, a5, a6, a7, a8, a9, a10, a11, a12]
  exact (Cert.KernelIdeal.Stages.result m ρ c).symm

end Cert.Proof.Claims

end
-- ==== Proof.lean ====
/-
  The proof of `Cert.Claim`: the witnesses of the programs' stated side conditions, then the three frames, `preserves`
  (trivial: the idealization rewrote nothing) and the equivalence of the idealized kernel and the idealized reference on
  the extended reals. The mathematics is in Proof/Claims.lean and the modules it imports: the kernel's run with its
  result named (KernelRun), a tile's and the head's arithmetic at an index (TileProduct, HeadProduct, LayerSpec), each
  region's output array as one whole-array function (Region0 … Region3), the host stretches read at the buffers the
  regions stage (Stretch0, Carried, KernelStages), and the reference's stages in the same terms (RefStages).
-/
import proofs.«151677_j22093311771174_1_alg».proof.Defs
import proofs.«151677_j22093311771174_1_alg».proof.Proof.Gen.Kernel
import proofs.«151677_j22093311771174_1_alg».proof.Proof.Gen.Kernel.Skeleton
import proofs.«151677_j22093311771174_1_alg».proof.Proof.Gen.Kernel.Launch
import proofs.«151677_j22093311771174_1_alg».proof.Proof.Gen.Kernel.Points
import proofs.«151677_j22093311771174_1_alg».proof.Proof.Gen.Kernel.Frame
import proofs.«151677_j22093311771174_1_alg».proof.Proof.Gen.KernelIdeal
import proofs.«151677_j22093311771174_1_alg».proof.Proof.Gen.KernelIdeal.Skeleton
import proofs.«151677_j22093311771174_1_alg».proof.Proof.Gen.KernelIdeal.Launch
import proofs.«151677_j22093311771174_1_alg».proof.Proof.Gen.KernelIdeal.Points
import proofs.«151677_j22093311771174_1_alg».proof.Proof.Gen.KernelIdeal.Frame
import proofs.«151677_j22093311771174_1_alg».proof.Proof.Gen.ReferenceIdeal
import proofs.«151677_j22093311771174_1_alg».proof.Proof.Gen.ReferenceIdeal.Run
import proofs.«151677_j22093311771174_1_alg».proof.Proof.Gen.ReferenceIdeal.Read
import proofs.«151677_j22093311771174_1_alg».proof.Proof.Gen.Pre_finite_inputs
import proofs.«151677_j22093311771174_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
